-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x16384x512 : S_.BroadcastsInDim S2x16384x512 (![] : Fin 0 → Fin S2x16384x512.rank)
  reducesTo_S2x16384x512_S_d0_1_2 : S2x16384x512.ReducesTo [0, 1, 2] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg4 : FVec F S2x512x2048 .f32) (main_arg5 : FVec F S2x2048 .f32) (main_v13 : IVec S_ 1) (main_v16 : IVec S2x512x2048 1) : IVec S_ 1 :=
  let main_c_5 : IVec S_ 1 := constantI S_ 1 1#1
  let main_v17 : IVec S_ 1 := (fun x v => Host.reduce IntOp.andi x v reducesTo_S2x512x2048_S_d0_1_2 h_S_) main_v16 main_c_5
  let main_v18 : IVec S_ 1 := andi main_v13 main_v17
  let main_v19 : FVec F S2x512x2048 .f32 := Host.absf main_arg4
  let main_cst_6 : FVec F S_ .f32 := constant S_ .f32 0x7F800000#32
  let main_v20 : FVec F S2x512x2048 .f32 := broadcastInDim S2x512x2048 ![] bcast_S_S2x512x2048 main_cst_6
  let main_v21 : IVec S2x512x2048 1 := cmpf .olt main_v19 main_v20
  let main_c_7 : IVec S_ 1 := constantI S_ 1 1#1
  let main_v22 : IVec S_ 1 := (fun x v => Host.reduce IntOp.andi x v reducesTo_S2x512x2048_S_d0_1_2 h_S_) main_v21 main_c_7
  let main_v23 : IVec S_ 1 := andi main_v18 main_v22
  let main_v24 : FVec F S2x2048 .f32 := Host.absf main_arg5
  let main_cst_8 : FVec F S_ .f32 := constant S_ .f32 0x7F800000#32
  let main_v25 : FVec F S2x2048 .f32 := broadcastInDim S2x2048 ![] bcast_S_S2x2048 main_cst_8
  let main_v26 : IVec S2x2048 1 := cmpf .olt main_v24 main_v25
  let main_c_9 : IVec S_ 1 := constantI S_ 1 1#1
  let main_v27 : IVec S_ 1 := (fun x v => Host.reduce IntOp.andi x v reducesTo_S2x2048_S_d0_1 h_S_) main_v26 main_c_9
  let main_v28 : IVec S_ 1 := andi main_v23 main_v27
  main_v28

def fn {F : FTy → Type} [FloatOps F] (main_arg0 : FVec F S16384x512 .f32) (main_arg1 : FVec F S2x16384x512 .f32) (main_arg2 : FVec F S2x16384x512 .f32) (main_arg3 : FVec F S2x512x2048 .f32) (main_arg4 : FVec F S2x512x2048 .f32) (main_arg5 : FVec F S2x2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S2x512x2048 .f32 := Host.absf main_arg3
  let main_cst_4 : FVec F S_ .f32 := constant S_ .f32 0x7F800000#32
  let main_v15 : FVec F S2x512x2048 .f32 := broadcastInDim S2x512x2048 ![] bcast_S_S2x512x2048 main_cst_4
  let main_v16 : IVec S2x512x2048 1 := cmpf .olt main_v14 main_v15
  fn_part1 (F := F) main_arg4 main_arg5 main_v13 main_v16
-- ==== Kernel.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S2x1024x2048 : Shape := ⟨3, ![2, 1024, 2048]⟩
abbrev S2x2x16384x512 : Shape := ⟨4, ![2, 2, 16384, 512]⟩
abbrev S1024x512 : Shape := ⟨2, ![1024, 512]⟩
abbrev S2x1024x512 : Shape := ⟨3, ![2, 1024, 512]⟩
abbrev S2x2x1024x512 : Shape := ⟨4, ![2, 2, 1024, 512]⟩
abbrev S1x1024x512 : Shape := ⟨3, ![1, 1024, 512]⟩
abbrev S1024x1024 : Shape := ⟨2, ![1024, 1024]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S1x1x1024x512 : Shape := ⟨4, ![1, 1, 1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S2x16384x512, .f32⟩
  | .hbm, ⟨3, _⟩ => ⟨S2x512x2048, .f32⟩
  | .hbm, ⟨4, _⟩ => ⟨S2x512x2048, .f32⟩
  | .hbm, ⟨5, _⟩ => ⟨S2x2048, .f32⟩
  | .hbm, ⟨6, _⟩ => ⟨S2x1024x2048, .f32⟩
  | .hbm, ⟨7, _⟩ => ⟨S2x1024x2048, .bf16⟩
  | .hbm, ⟨8, _⟩ => ⟨S2x2x16384x512, .f32⟩
  | .local _ .vmem, ⟨0, _⟩ => ⟨S1024x512, .f32⟩
  | .local _ .vmem, ⟨1, _⟩ => ⟨S1024x512, .f32⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x2048, .bf16⟩
  | .local _ .vmem, ⟨7, _⟩ => ⟨S2x2048, .f32⟩
  | .local _ .vmem, ⟨8, _⟩ => ⟨S2x2x1024x512, .f32⟩
  | .local _ .vmem, ⟨9, _⟩ => ⟨S2x2x1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S2x512x2048_S2x512x2048_S2x1024x2048_d1 : Shape.Concatenates [S2x512x2048, S2x512x2048] S2x1024x2048 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  concatenates_S1024x512_S1024x512_S1024x1024_d1 : Shape.Concatenates [S1024x512, S1024x512] S1024x1024 1
  inb_S2x1024x2048_S1x1024x2048_0_0_0 : ∀ a, (![0, 0, 0] : Fin 3 → Nat) a + S1x1024x2048.size a ≤ S2x1024x2048.size a
  h_S1x1024x2048 : 0 < S1x1024x2048.numel
  shapeCasts_S1x1024x2048_S1024x2048 : S1x1024x2048.ShapeCasts S1024x2048
  inb_S2x2048_S1x2048_0_0 : ∀ a, (![0, 0] : Fin 2 → Nat) a + S1x2048.size a ≤ S2x2048.size a
  h_S1x2048 : 0 < S1x2048.numel
  shapeCasts_S1x2048_S2048 : S1x2048.ShapeCasts S2048
  shapeCasts_S2048_S1x2048 : S2048.ShapeCasts S1x2048
  broadcasts_S1x2048_S1024x2048 : S1x2048.Broadcasts S1024x2048
  slices_S1024x2048_o0_0_S1024x512 : S1024x2048.Slices ![0, 0] S1024x512
  slices_S1024x2048_o0_512_S1024x512 : S1024x2048.Slices ![0, 512] S1024x512
  slices_S1024x2048_o0_1024_S1024x512 : S1024x2048.Slices ![0, 1024] S1024x512
  slices_S1024x2048_o0_1536_S1024x512 : S1024x2048.Slices ![0, 1536] S1024x512
  inb_S2x2x1024x512_S1x1x1024x512_0_0_0_0 : ∀ a, (![0, 0, 0, 0] : Fin 4 → Nat) a + S1x1x1024x512.size a ≤ S2x2x1024x512.size a
  h_S1x1x1024x512 : 0 < S1x1x1024x512.numel
  shapeCasts_S1x1x1024x512_S1024x512 : S1x1x1024x512.ShapeCasts S1024x512
  shapeCasts_S1024x512_S1x1x1024x512 : S1024x512.ShapeCasts S1x1x1024x512
  inb_S2x2x1024x512_S1x1x1024x512_0_1_0_0 : ∀ a, (![0, 1, 0, 0] : Fin 4 → Nat) a + S1x1x1024x512.size a ≤ S2x2x1024x512.size a
  inb_S2x1024x512_S1x1024x512_1_0_0 : ∀ a, (![1, 0, 0] : Fin 3 → Nat) a + S1x1024x512.size a ≤ S2x1024x512.size a
  inb_S2x1024x2048_S1x1024x2048_1_0_0 : ∀ a, (![1, 0, 0] : Fin 3 → Nat) a + S1x1024x2048.size a ≤ S2x1024x2048.size a
  inb_S2x2048_S1x2048_1_0 : ∀ a, (![1, 0] : Fin 2 → Nat) a + S1x2048.size a ≤ S2x2048.size a
  inb_S2x2x1024x512_S1x1x1024x512_1_0_0_0 : ∀ a, (![1, 0, 0, 0] : Fin 4 → Nat) a + S1x1x1024x512.size a ≤ S2x2x1024x512.size a
  inb_S2x2x1024x512_S1x1x1024x512_1_1_0_0 : ∀ a, (![1, 1, 0, 0] : Fin 4 → Nat) a + S1x1x1024x512.size a ≤ S2x2x1024x512.size a
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x512.size a ≤ S2x16384x512.size a
  hwx0_1 : ∀ i : grid0.Coords, EltTy.bits .f32 = 32 ∨ (Rect.block (s := S2x16384x512) S2x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S2x16384x512.size a
  hwx0_2 : ∀ i : grid0.Coords, EltTy.bits .f32 = 32 ∨ (Rect.block (s := S2x16384x512) S2x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024x2048.size a ≤ S2x1024x2048.size a
  hwx0_3 : ∀ i : grid0.Coords, EltTy.bits .bf16 = 32 ∨ (Rect.block (s := S2x1024x2048) S2x1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2048.size a ≤ S2x2048.size a
  hwx0_4 : ∀ i : grid0.Coords, EltTy.bits .f32 = 32 ∨ (Rect.block (s := S2x2048) S2x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x2x1024x512.size a ≤ S2x2x16384x512.size a
  hwx0_5 : ∀ i : grid0.Coords, EltTy.bits .f32 = 32 ∨ (Rect.block (s := S2x2x16384x512) S2x2x1024x512.size (cc0_transform_5 i) (hinb0_5 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x2x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S1x16384x512 : Shape := ⟨3, ![1, 16384, 512]⟩
abbrev S1x512x2048 : Shape := ⟨3, ![1, 512, 2048]⟩
abbrev S512x2048 : Shape := ⟨2, ![512, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S2x1x16384x512 : Shape := ⟨4, ![2, 1, 16384, 512]⟩
abbrev S2x2x16384x512 : Shape := ⟨4, ![2, 2, 16384, 512]⟩

abbrev nBuf : Space → Nat
  | .hbm => 115
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S2x16384x512, .f32⟩
  | .hbm, ⟨3, _⟩ => ⟨S2x512x2048, .f32⟩
  | .hbm, ⟨4, _⟩ => ⟨S2x512x2048, .f32⟩
  | .hbm, ⟨5, _⟩ => ⟨S2x2048, .f32⟩
  | .hbm, ⟨6, _⟩ => ⟨S1x16384x512, .f32⟩
  | .hbm, ⟨7, _⟩ => ⟨S16384x512, .f32⟩
  | .hbm, ⟨8, _⟩ => ⟨S1x16384x512, .f32⟩
  | .hbm, ⟨9, _⟩ => ⟨S16384x512, .f32⟩
  | .hbm, ⟨10, _⟩ => ⟨S1x512x2048, .f32⟩
  | .hbm, ⟨11, _⟩ => ⟨S512x2048, .f32⟩
  | .hbm, ⟨12, _⟩ => ⟨S16384x2048, .f32⟩
  | .hbm, ⟨13, _⟩ => ⟨S1x512x2048, .f32⟩
  | .hbm, ⟨14, _⟩ => ⟨S512x2048, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S1x16384x512, .f32⟩
  | .hbm, ⟨57, _⟩ => ⟨S16384x512, .f32⟩
  | .hbm, ⟨58, _⟩ => ⟨S1x16384x512, .f32⟩
  | .hbm, ⟨59, _⟩ => ⟨S16384x512, .f32⟩
  | .hbm, ⟨60, _⟩ => ⟨S1x512x2048, .f32⟩
  | .hbm, ⟨61, _⟩ => ⟨S512x2048, .f32⟩
  | .hbm, ⟨62, _⟩ => ⟨S16384x2048, .f32⟩
  | .hbm, ⟨63, _⟩ => ⟨S1x512x2048, .f32⟩
  | .hbm, ⟨64, _⟩ => ⟨S512x2048, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S16384x2048, .f32⟩
  | .hbm, ⟨71, _⟩ => ⟨S16384x2048, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x512, .f32⟩
  | .hbm, ⟨90, _⟩ => ⟨S_, .f32⟩
  | .hbm, ⟨91, _⟩ => ⟨S16384x512, .f32⟩
  | .hbm, ⟨92, _⟩ => ⟨S16384x512, .f32⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S_, .f32⟩
  | .hbm, ⟨99, _⟩ => ⟨S16384x512, .f32⟩
  | .hbm, ⟨100, _⟩ => ⟨S16384x512, .f32⟩
  | .hbm, ⟨101, _⟩ => ⟨S_, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S16384x512, .f32⟩
  | .hbm, ⟨106, _⟩ => ⟨S1x16384x512, .f32⟩
  | .hbm, ⟨107, _⟩ => ⟨S1x16384x512, .f32⟩
  | .hbm, ⟨108, _⟩ => ⟨S2x16384x512, .f32⟩
  | .hbm, ⟨109, _⟩ => ⟨S1x16384x512, .f32⟩
  | .hbm, ⟨110, _⟩ => ⟨S1x16384x512, .f32⟩
  | .hbm, ⟨111, _⟩ => ⟨S2x16384x512, .f32⟩
  | .hbm, ⟨112, _⟩ => ⟨S2x1x16384x512, .f32⟩
  | .hbm, ⟨113, _⟩ => ⟨S2x1x16384x512, .f32⟩
  | .hbm, ⟨114, _⟩ => ⟨S2x2x16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]

class Facts₀ : Prop where
  slices_S2x16384x512_S1x16384x512_0_0_0 : S2x16384x512.Slices ![0, 0, 0] S1x16384x512
  shapeCasts_S1x16384x512_S16384x512 : S1x16384x512.ShapeCasts S16384x512
  slices_S2x512x2048_S1x512x2048_0_0_0 : S2x512x2048.Slices ![0, 0, 0] S1x512x2048
  shapeCasts_S1x512x2048_S512x2048 : S1x512x2048.ShapeCasts S512x2048
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S2x16384x512_S1x16384x512_1_0_0 : S2x16384x512.Slices ![1, 0, 0] S1x16384x512
  slices_S2x512x2048_S1x512x2048_1_0_0 : S2x512x2048.Slices ![1, 0, 0] S1x512x2048
  slices_S2x2048_S1x2048_1_0 : S2x2048.Slices ![1, 0] S1x2048
  bcast_S16384x512_S1x16384x512_1_2 : S16384x512.BroadcastsInDim S1x16384x512 (![1, 2] : Fin 2 → Fin S1x16384x512.rank)
  concatenates_S1x16384x512_S1x16384x512_S2x16384x512_d0 : Shape.Concatenates [S1x16384x512, S1x16384x512] S2x16384x512 0
  bcast_S2x16384x512_S2x1x16384x512_0_2_3 : S2x16384x512.BroadcastsInDim S2x1x16384x512 (![0, 2, 3] : Fin 3 → Fin S2x1x16384x512.rank)
  concatenates_S2x1x16384x512_S2x1x16384x512_S2x2x16384x512_d1 : Shape.Concatenates [S2x1x16384x512, S2x1x16384x512] S2x2x16384x512 1
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.Spec.lean ====
/-
  The function both programs compute, one batch row at a time.

  A stack of two LSTM cells. For one batch row, with input row x, recurrent row h, carried cell row p, forward
  weights K, recurrent weights R (512 × 2048 each) and bias b, the gate pre-activations are
      z(j) = (∑ₖ x(k)·K(k, j) + ∑ₖ h(k)·R(k, j)) + b(j)          for the 2048 lanes j,
  cut into four runs of 512 lanes (input, forget, candidate, output gates), and the cell returns
      c(s) = σ(z(512 + s))·p(s) + σ(z(s))·tanh(z(1024 + s)),      h'(s) = σ(z(1536 + s))·tanh(c(s)),
  σ the logistic function. The second cell takes the first cell's c as its input row. Everything is read on the
  extended reals with the exact operations, so σ and tanh are total (σ(-∞) = 0, σ(+∞) = 1, tanh(±∞) = ±1).

  One program contracts the row [x ; h] of length 1024 against the stacked matrix [K ; R]; the other adds the two
  products of length 512. The two are equal because a sum over 1024 terms is the sum of its two halves
  (`sum_halves`): only associativity of + on the extended reals, so nothing has to be finite.
-/
import Idealize.ShloMosaic.PureOps.Ideal
import Idealize.ShloMosaic.Lib.ValueIdx
import Mathlib.Algebra.BigOperators.Fin

noncomputable section

namespace Cert.LstmStack

open Idealize.ShloMosaic Idealize.ShloMosaic.ValueIdx

/-- Lane `o + s` of the 2048 gate lanes: hidden unit `s` of the gate whose run of lanes starts at `o`. -/
def lane (o : Nat) (ho : o + 512 ≤ 2048) (s : Fin 512) : Fin 2048 := ⟨o + s.val, by have := s.isLt; omega⟩

/-- Row `k` of the upper half of a 1024-row matrix, and of the lower half. -/
def upper (k : Fin 512) : Fin 1024 := ⟨k.val, by have := k.isLt; omega⟩
def lower (k : Fin 512) : Fin 1024 := ⟨512 + k.val, by have := k.isLt; omega⟩

/-- The gate pre-activations of one batch row: the two products of length 512, added, plus the bias. -/
def pre (x h : Fin 512 → EReal) (K R : Fin 512 → Fin 2048 → EReal) (b : Fin 2048 → EReal) (j : Fin 2048) : EReal :=
  (∑ k : Fin 512, x k * K k j + ∑ k : Fin 512, h k * R k j) + b j

/-- The new cell state: forget gate times the carried state plus input gate times the candidate. -/
def cellC (z : Fin 2048 → EReal) (p : Fin 512 → EReal) (s : Fin 512) : EReal :=
  Ideal.logistic (z (lane 512 (by decide) s)) * p s + Ideal.logistic (z (lane 0 (by decide) s)) * Ideal.tanh (z (lane 1024 (by decide) s))

/-- The new hidden state: output gate times tanh of the new cell state. -/
def cellH (z : Fin 2048 → EReal) (c : Fin 512 → EReal) (s : Fin 512) : EReal :=
  Ideal.logistic (z (lane 1536 (by decide) s)) * Ideal.tanh (c s)

/-- A sum of 1024 terms is the sum of its first 512 and its last 512: associativity of + alone. -/
theorem sum_halves (f : Fin 1024 → EReal) :
    ∑ k : Fin 1024, f k = ∑ k : Fin 512, f (upper k) + ∑ k : Fin 512, f (lower k) := by
  have h := Fin.sum_univ_add (M := EReal) (a := 512) (b := 512) (fun i : Fin (512 + 512) => f i)
  exact h.trans (congrArg₂ (· + ·) (Finset.sum_congr rfl fun k _ => congrArg f (Fin.ext rfl))
    (Finset.sum_congr rfl fun k _ => congrArg f (Fin.ext rfl)))

/-- The contraction of the joined row [x ; h] with the stacked matrix [K ; R] is the sum of the two products. -/
theorem fused_dot (xh : Fin 1024 → EReal) (W : Fin 1024 → EReal) (x h Kj Rj : Fin 512 → EReal)
    (hx : ∀ k, xh (upper k) = x k) (hh : ∀ k, xh (lower k) = h k)
    (hK : ∀ k, W (upper k) = Kj k) (hR : ∀ k, W (lower k) = Rj k) :
    ∑ k : Fin 1024, xh k * W k = ∑ k : Fin 512, x k * Kj k + ∑ k : Fin 512, h k * Rj k := by
  rw [sum_halves]
  exact congrArg₂ (· + ·) (Finset.sum_congr rfl fun k _ => by rw [hx, hK]) (Finset.sum_congr rfl fun k _ => by rw [hh, hR])

/-! ## Both cells of one batch row -/

section Row

variable (x : Fin 512 → EReal) (h p : Fin 2 → Fin 512 → EReal) (K R : Fin 2 → Fin 512 → Fin 2048 → EReal)
  (b : Fin 2 → Fin 2048 → EReal)

/-- First cell: pre-activations, new cell state, new hidden state. -/
def z0 : Fin 2048 → EReal := pre x (h 0) (K 0) (R 0) (b 0)
def c0 : Fin 512 → EReal := cellC (z0 x h K R b) (p 0)
def h0 : Fin 512 → EReal := cellH (z0 x h K R b) (c0 x h p K R b)

/-- Second cell, fed the first cell's new cell state. -/
def z1 : Fin 2048 → EReal := pre (c0 x h p K R b) (h 1) (K 1) (R 1) (b 1)
def c1 : Fin 512 → EReal := cellC (z1 x h p K R b) (p 1)
def h1 : Fin 512 → EReal := cellH (z1 x h p K R b) (c1 x h p K R b)

/-- The row's four results: layer `l`, then hidden state (0) or cell state (1). -/
def rowOut (l q : Nat) : Fin 512 → EReal :=
  if l = 0 then (if q = 0 then h0 x h p K R b else c0 x h p K R b)
  else (if q = 0 then h1 x h p K R b else c1 x h p K R b)

end Row

/-! ## The result array as one function of the six argument arrays -/

section Arrays

variable (a0 : (⟨2, ![16384, 512]⟩ : Shape).Idx → EReal) (a1 a2 : (⟨3, ![2, 16384, 512]⟩ : Shape).Idx → EReal)
  (a3 a4 : (⟨3, ![2, 512, 2048]⟩ : Shape).Idx → EReal) (a5 : (⟨2, ![2, 2048]⟩ : Shape).Idx → EReal)

/-- Batch row `r` of the input, of the two layers' recurrent inputs and of their carried cell states. -/
def xrow (r : Fin 16384) : Fin 512 → EReal := fun k => a0 (ix2 r k)
def lrow (a : (⟨3, ![2, 16384, 512]⟩ : Shape).Idx → EReal) (r : Fin 16384) : Fin 2 → Fin 512 → EReal := fun l k => a (ix3 l r k)
/-- A layer's weight matrix, and its bias. -/
def wmat (a : (⟨3, ![2, 512, 2048]⟩ : Shape).Idx → EReal) : Fin 2 → Fin 512 → Fin 2048 → EReal := fun l k j => a (ix3 l k j)
def bvec : Fin 2 → Fin 2048 → EReal := fun l j => a5 (ix2 l j)

/-- Entry (l, q, r, s) of the result: batch row `r`, layer `l`, hidden (q = 0) or cell (q = 1) state, unit `s`. -/
def G : (⟨4, ![2, 2, 16384, 512]⟩ : Shape).Idx → EReal := fun i =>
  rowOut (xrow a0 (i 2)) (lrow a1 (i 2)) (lrow a2 (i 2)) (wmat a3) (wmat a4) (bvec a5) (i 0).val (i 1).val (i 3)

end Arrays

end Cert.LstmStack

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Body.lean ====
/-
  The kernel body's arithmetic, read at an index.

  The body computes, from the blocks it loads (1024 batch rows of the input, of the recurrent inputs and of the
  carried cell states; the stacked bf16 weights [K ; R] and the biases of both layers), a [1024, 2048] array of gate
  pre-activations per layer by ONE matrix product of the joined rows [x ; h] (length 1024) with the stacked weights,
  then the gates. Read at row p, the joined product is the sum of the two products of length 512 (the first 512 terms
  pair x with the upper half K of the stacked matrix, the last 512 pair h with the lower half R), so each payload at
  row p is the specification's row function of row p of the loaded blocks. A change of float format is the identity
  on the extended reals.
-/
import proofs.«148567_j76012331204660_2_alg».proof.Proof.Gen.KernelIdeal.Frame
import proofs.«148567_j76012331204660_2_alg».proof.Proof.Spec
import proofs.«148567_j76012331204660_2_alg».proof.Proof.LibPlainDot
import Idealize.ShloMosaic.Lib.Pipeline.Value
import Idealize.ShloMosaic.Lib.ValueIdx
import Idealize.ShloMosaic.PureOps.Ideal.Laws

noncomputable section

namespace Cert.LstmStack.Body

open Cert.KernelIdeal Cert.KernelIdeal.Gen Idealize.ShloMosaic Idealize.ShloMosaic.ValueIdx Cert.LstmStack

/-! ## The layout operations of the body, read at an index -/

/-- The matrix product into a zero accumulator at (p, j): the sum over the 1024 joined columns. -/
theorem matmul_at (A : FVec Ideal S1024x1024 .bf16) (W : FVec Ideal S1024x2048 .bf16) (p : Fin 1024) (j : Fin 2048) :
    matmul dot_S1024x1024_S1024x2048_S1024x2048_1_0_0_1_n_n none A W (constant S1024x2048 .f32 0x00000000#32) (ix2 p j)
      = ∑ k : Fin 1024, A (ix2 p k) * W (ix2 k j) :=
  Cert.LibPlainDot.matmul_zero_apply dot_S1024x1024_S1024x2048_S1024x2048_1_0_0_1_n_n_wf none A W p j

/-- The joined row [x ; h]: its first 512 columns are x's … -/
theorem join_upper {α : Type} (x y : S1024x512.Idx → α) (p : Fin 1024) (k : Fin 512) :
    concatenate S1024x1024 1 [⟨S1024x512, x⟩, ⟨S1024x512, y⟩] concatenates_S1024x512_S1024x512_S1024x1024_d1 (ix2 p (upper k)) = x (ix2 p k) :=
  concatenate_pair_apply_left 1 x y _ (ix2 p (upper k)) rfl (ix2 p k) (fun b => match b with | ⟨0, _⟩ => rfl | ⟨1, _⟩ => rfl)

/-- … and its last 512 are h's. -/
theorem join_lower {α : Type} (x y : S1024x512.Idx → α) (p : Fin 1024) (k : Fin 512) :
    concatenate S1024x1024 1 [⟨S1024x512, x⟩, ⟨S1024x512, y⟩] concatenates_S1024x512_S1024x512_S1024x1024_d1 (ix2 p (lower k)) = y (ix2 p k) :=
  concatenate_pair_apply_right 1 x y _ (ix2 p (lower k)) rfl rfl (ix2 p k)
    (fun b hb => match b, hb with | ⟨0, _⟩, _ => rfl | ⟨1, _⟩, hb => absurd rfl hb)
    (by show k.val + 512 = 512 + k.val; omega)

/-- A [1, 1024, 512] slab read as [1024, 512]. -/
theorem slab_at {α : Type} (v : S1x1024x512.Idx → α) (p : Fin 1024) (k : Fin 512) :
    shapeCast S1024x512 v shapeCasts_S1x1024x512_S1024x512 (ix2 p k) = v (ix3 0 p k) :=
  shapeCast_apply v _ (ix2 p k) (ix3 0 p k) (by
    rw [Shape.rowMajor_val_three, Shape.rowMajor_val_two]; show (0 * 1024 + p.val) * 512 + k.val = p.val * 512 + k.val; omega)

/-- A [1, 1024, 2048] slab of weights read as [1024, 2048]. -/
theorem wslab_at {α : Type} (v : S1x1024x2048.Idx → α) (k : Fin 1024) (j : Fin 2048) :
    shapeCast S1024x2048 v shapeCasts_S1x1024x2048_S1024x2048 (ix2 k j) = v (ix3 0 k j) :=
  shapeCast_apply v _ (ix2 k j) (ix3 0 k j) (by
    rw [Shape.rowMajor_val_three, Shape.rowMajor_val_two]; show (0 * 1024 + k.val) * 2048 + j.val = k.val * 2048 + j.val; omega)

/-- The bias row [1, 2048], flattened, restored and broadcast down the 1024 rows. -/
theorem bias_at {α : Type} (v : S1x2048.Idx → α) (p : Fin 1024) (j : Fin 2048) :
    broadcastTo S1024x2048 (shapeCast S1x2048 (shapeCast S2048 v shapeCasts_S1x2048_S2048) shapeCasts_S2048_S1x2048) broadcasts_S1x2048_S1024x2048 (ix2 p j)
      = v (ix2 0 j) := by
  rw [broadcastTo_apply _ _ (ix2 p j) (ix2 0 j) (fun a => match a with
    | ⟨0, _⟩ => by show (0 : Nat) = if (1 : Nat) = 1 then 0 else _; rw [if_pos rfl]
    | ⟨1, _⟩ => by show j.val = if (2048 : Nat) = 1 then 0 else j.val; rw [if_neg (by decide)])]
  rw [shapeCast_apply _ shapeCasts_S2048_S1x2048 (ix2 0 j) (ix1 j) (by
    rw [Shape.rowMajor_val_one, Shape.rowMajor_val_two]; show j.val = 0 * 2048 + j.val; omega)]
  exact shapeCast_apply v shapeCasts_S1x2048_S2048 (ix1 j) (ix2 0 j) (by
    rw [Shape.rowMajor_val_one, Shape.rowMajor_val_two]; show 0 * 2048 + j.val = j.val; omega)

/-- A [1024, 512] result stored as a [1, 1, 1024, 512] piece. -/
theorem piece_at {α : Type} (w : S1024x512.Idx → α) (a b : Fin 1) (p : Fin 1024) (s : Fin 512) :
    shapeCast S1x1x1024x512 w shapeCasts_S1024x512_S1x1x1024x512 (ix4 a b p s) = w (ix2 p s) :=
  shapeCast_apply w _ (ix4 a b p s) (ix2 p s) (by
    have h0 : a.val < 1 := a.isLt
    have h1 : b.val < 1 := b.isLt
    rw [Shape.rowMajor_val_two, Shape.rowMajor_val_four]
    show p.val * 512 + s.val = ((a.val * 1 + b.val) * 1024 + p.val) * 512 + s.val
    have e0 : a.val = 0 := by omega
    have e1 : b.val = 0 := by omega
    rw [e0, e1]; omega)

/-- The four runs of 512 lanes cut out of the [1024, 2048] pre-activations. -/
theorem gate0_at {α : Type} (z : S1024x2048.Idx → α) (p : Fin 1024) (s : Fin 512) :
    extractStridedSlice S1024x512 ![0, 0] z slices_S1024x2048_o0_0_S1024x512 (ix2 p s) = z (ix2 p (lane 0 (by decide) s)) :=
  extractStridedSlice_apply _ z _ (ix2 p s) _ (fun a => match a with
    | ⟨0, _⟩ => by show p.val = 0 + p.val; omega
    | ⟨1, _⟩ => rfl)
theorem gate1_at {α : Type} (z : S1024x2048.Idx → α) (p : Fin 1024) (s : Fin 512) :
    extractStridedSlice S1024x512 ![0, 512] z slices_S1024x2048_o0_512_S1024x512 (ix2 p s) = z (ix2 p (lane 512 (by decide) s)) :=
  extractStridedSlice_apply _ z _ (ix2 p s) _ (fun a => match a with
    | ⟨0, _⟩ => by show p.val = 0 + p.val; omega
    | ⟨1, _⟩ => rfl)
theorem gate2_at {α : Type} (z : S1024x2048.Idx → α) (p : Fin 1024) (s : Fin 512) :
    extractStridedSlice S1024x512 ![0, 1024] z slices_S1024x2048_o0_1024_S1024x512 (ix2 p s) = z (ix2 p (lane 1024 (by decide) s)) :=
  extractStridedSlice_apply _ z _ (ix2 p s) _ (fun a => match a with
    | ⟨0, _⟩ => by show p.val = 0 + p.val; omega
    | ⟨1, _⟩ => rfl)
theorem gate3_at {α : Type} (z : S1024x2048.Idx → α) (p : Fin 1024) (s : Fin 512) :
    extractStridedSlice S1024x512 ![0, 1536] z slices_S1024x2048_o0_1536_S1024x512 (ix2 p s) = z (ix2 p (lane 1536 (by decide) s)) :=
  extractStridedSlice_apply _ z _ (ix2 p s) _ (fun a => match a with
    | ⟨0, _⟩ => by show p.val = 0 + p.val; omega
    | ⟨1, _⟩ => rfl)

/-! ## Row `p` of the loaded blocks -/

/-- Row `p` of a [1024, 512] block, of a [1, 1024, 512] slab; the upper and lower halves of a [1, 1024, 2048] slab of
    stacked weights; a [1, 2048] bias row. -/
def xr (v : S1024x512.Idx → EReal) (p : Fin 1024) : Fin 512 → EReal := fun k => v (ix2 p k)
def sr (v : S1x1024x512.Idx → EReal) (p : Fin 1024) : Fin 512 → EReal := fun k => v (ix3 0 p k)
def wK (v : S1x1024x2048.Idx → EReal) : Fin 512 → Fin 2048 → EReal := fun k j => v (ix3 0 (upper k) j)
def wR (v : S1x1024x2048.Idx → EReal) : Fin 512 → Fin 2048 → EReal := fun k j => v (ix3 0 (lower k) j)
def br (v : S1x2048.Idx → EReal) : Fin 2048 → EReal := fun j => v (ix2 0 j)

/-- One layer's pre-activations from the joined product: row `p` of x (any [1024, 512] array) joined with row `p` of
    the slab h, against the stacked weights, plus the bias, is the specification's `pre`. -/
theorem joined_pre (x : FVec Ideal S1024x512 .f32) (h : Vec Ideal S1x1024x512 .f32) (w : Vec Ideal S1x1024x2048 .bf16)
    (b : Vec Ideal S1x2048 .f32) (p : Fin 1024) (j : Fin 2048) :
    addf (matmul dot_S1024x1024_S1024x2048_S1024x2048_1_0_0_1_n_n none
        (concatenate S1024x1024 1 [⟨S1024x512, truncf .bf16 x bitsLt_bf16_f32⟩, ⟨S1024x512, truncf .bf16 (shapeCast S1024x512 h shapeCasts_S1x1024x512_S1024x512) bitsLt_bf16_f32⟩] concatenates_S1024x512_S1024x512_S1024x1024_d1)
        (shapeCast S1024x2048 w shapeCasts_S1x1024x2048_S1024x2048 : FVec Ideal S1024x2048 .bf16) (constant S1024x2048 .f32 0x00000000#32))
      (broadcastTo S1024x2048 (shapeCast S1x2048 (shapeCast S2048 b shapeCasts_S1x2048_S2048) shapeCasts_S2048_S1x2048) broadcasts_S1x2048_S1024x2048) (ix2 p j)
      = pre (xr x p) (sr h p) (wK w) (wR w) (br b) j := by
  rw [addf_apply, matmul_at, bias_at]
  unfold pre
  refine congrArg₂ (· + ·) ?_ rfl
  refine fused_dot (fun k => _) (fun k => _) (xr x p) (sr h p) (fun k => wK w k j) (fun k => wR w k j) ?_ ?_ ?_ ?_
  · intro k; rw [join_upper]; rfl
  · intro k; rw [join_lower]; exact slab_at h p k
  · intro k; exact wslab_at w (upper k) j
  · intro k; exact wslab_at w (lower k) j

/-- The new cell state from the four gate runs. -/
theorem cell_c (z : FVec Ideal S1024x2048 .f32) (cprev : Vec Ideal S1x1024x512 .f32) (zr : Fin 2048 → EReal) (p : Fin 1024)
    (hz : ∀ j, z (ix2 p j) = zr j) (s : Fin 512) :
    addf (mulf (logistic (extractStridedSlice S1024x512 ![0, 512] z slices_S1024x2048_o0_512_S1024x512)) (shapeCast S1024x512 cprev shapeCasts_S1x1024x512_S1024x512))
      (mulf (logistic (extractStridedSlice S1024x512 ![0, 0] z slices_S1024x2048_o0_0_S1024x512)) (tanh (extractStridedSlice S1024x512 ![0, 1024] z slices_S1024x2048_o0_1024_S1024x512))) (ix2 p s)
      = cellC zr (sr cprev p) s := by
  show Ideal.logistic (extractStridedSlice S1024x512 ![0, 512] z slices_S1024x2048_o0_512_S1024x512 (ix2 p s)) * shapeCast S1024x512 cprev shapeCasts_S1x1024x512_S1024x512 (ix2 p s)
    + Ideal.logistic (extractStridedSlice S1024x512 ![0, 0] z slices_S1024x2048_o0_0_S1024x512 (ix2 p s)) * Ideal.tanh (extractStridedSlice S1024x512 ![0, 1024] z slices_S1024x2048_o0_1024_S1024x512 (ix2 p s)) = _
  rw [gate0_at, gate1_at, gate2_at, slab_at, hz, hz, hz]
  rfl

/-- The new hidden state from the output gate's run and the new cell state. -/
theorem cell_h (z : FVec Ideal S1024x2048 .f32) (c : FVec Ideal S1024x512 .f32) (zr : Fin 2048 → EReal) (cr : Fin 512 → EReal) (p : Fin 1024)
    (hz : ∀ j, z (ix2 p j) = zr j) (hc : ∀ s, c (ix2 p s) = cr s) (s : Fin 512) :
    mulf (logistic (extractStridedSlice S1024x512 ![0, 1536] z slices_S1024x2048_o0_1536_S1024x512)) (tanh c) (ix2 p s) = cellH zr cr s := by
  show Ideal.logistic (extractStridedSlice S1024x512 ![0, 1536] z slices_S1024x2048_o0_1536_S1024x512 (ix2 p s)) * Ideal.tanh (c (ix2 p s)) = _
  rw [gate3_at, hz, hc]
  rfl

/-! ## The payloads at an index -/

section Payloads

variable (v0 : Vec Ideal S1024x512 .f32) (v1 v3 : Vec Ideal S1x1024x512 .f32) (v8 : Vec Ideal S1x1024x2048 .bf16) (v11 : Vec Ideal S1x2048 .f32)

/-- Layer 0's pre-activations at (p, j). -/
theorem pay5_at (p : Fin 1024) (j : Fin 2048) :
    k0_pay5 (F := Ideal) v0 v1 v8 v11 (ix2 p j) = pre (xr v0 p) (sr v1 p) (wK v8) (wR v8) (br v11) j := by
  unfold k0_pay5
  exact joined_pre v0 v1 v8 v11 p j

/-- Layer 0's new cell state at (p, s). -/
theorem pay6_at (p : Fin 1024) (s : Fin 512) :
    k0_pay6 (F := Ideal) v0 v1 v3 v8 v11 (ix2 p s) = cellC (pre (xr v0 p) (sr v1 p) (wK v8) (wR v8) (br v11)) (sr v3 p) s := by
  unfold k0_pay6
  exact cell_c (k0_pay5 v0 v1 v8 v11) v3 _ p (fun j => pay5_at v0 v1 v8 v11 p j) s

/-- Layer 0's new hidden state, as the [1, 1, 1024, 512] piece that is stored. -/
theorem pay7_at (a b : Fin 1) (p : Fin 1024) (s : Fin 512) :
    k0_pay7 (F := Ideal) v0 v1 v3 v8 v11 (ix4 a b p s)
      = cellH (pre (xr v0 p) (sr v1 p) (wK v8) (wR v8) (br v11)) (cellC (pre (xr v0 p) (sr v1 p) (wK v8) (wR v8) (br v11)) (sr v3 p)) s := by
  unfold k0_pay7
  rw [piece_at]
  exact cell_h (k0_pay5 v0 v1 v8 v11) (k0_pay6 v0 v1 v3 v8 v11) _ _ p (fun j => pay5_at v0 v1 v8 v11 p j) (fun s => pay6_at v0 v1 v3 v8 v11 p s) s

/-- Layer 0's new cell state, as the stored piece. -/
theorem pay8_at (a b : Fin 1) (p : Fin 1024) (s : Fin 512) :
    k0_pay8 (F := Ideal) v0 v1 v3 v8 v11 (ix4 a b p s) = cellC (pre (xr v0 p) (sr v1 p) (wK v8) (wR v8) (br v11)) (sr v3 p) s := by
  unfold k0_pay8
  rw [piece_at]
  exact pay6_at v0 v1 v3 v8 v11 p s

variable (v25 : FVec Ideal S1024x512 .f32) (v35 v37 : Vec Ideal S1x1024x512 .f32) (v42 : Vec Ideal S1x1024x2048 .bf16) (v45 : Vec Ideal S1x2048 .f32)

/-- Layer 1's pre-activations at (p, j), from whatever [1024, 512] array it is fed. -/
theorem pay1_at (p : Fin 1024) (j : Fin 2048) :
    k0_pay1 (F := Ideal) v25 v35 v42 v45 (ix2 p j) = pre (xr v25 p) (sr v35 p) (wK v42) (wR v42) (br v45) j := by
  unfold k0_pay1
  exact joined_pre v25 v35 v42 v45 p j

theorem pay2_at (p : Fin 1024) (s : Fin 512) :
    k0_pay2 (F := Ideal) v25 v35 v37 v42 v45 (ix2 p s) = cellC (pre (xr v25 p) (sr v35 p) (wK v42) (wR v42) (br v45)) (sr v37 p) s := by
  unfold k0_pay2
  exact cell_c (k0_pay1 v25 v35 v42 v45) v37 _ p (fun j => pay1_at v25 v35 v42 v45 p j) s

theorem pay3_at (a b : Fin 1) (p : Fin 1024) (s : Fin 512) :
    k0_pay3 (F := Ideal) v25 v35 v37 v42 v45 (ix4 a b p s)
      = cellH (pre (xr v25 p) (sr v35 p) (wK v42) (wR v42) (br v45)) (cellC (pre (xr v25 p) (sr v35 p) (wK v42) (wR v42) (br v45)) (sr v37 p)) s := by
  unfold k0_pay3
  rw [piece_at]
  exact cell_h (k0_pay1 v25 v35 v42 v45) (k0_pay2 v25 v35 v37 v42 v45) _ _ p (fun j => pay1_at v25 v35 v42 v45 p j) (fun s => pay2_at v25 v35 v37 v42 v45 p s) s

theorem pay4_at (a b : Fin 1) (p : Fin 1024) (s : Fin 512) :
    k0_pay4 (F := Ideal) v25 v35 v37 v42 v45 (ix4 a b p s) = cellC (pre (xr v25 p) (sr v35 p) (wK v42) (wR v42) (br v45)) (sr v37 p) s := by
  unfold k0_pay4
  rw [piece_at]
  exact pay2_at v25 v35 v37 v42 v45 p s

end Payloads

end Cert.LstmStack.Body

end
-- ==== Proof.Block.lean ====
/-
  What one grid point leaves in the output block, as rows.

  The body stores four [1, 1, 1024, 512] pieces into the [2, 2, 1024, 512] output block: layer 0's hidden and cell
  states, then layer 1's. Each piece, at block row p, is the specification's row function of row p of the five input
  blocks (1024 batch rows of the input, of both layers' recurrent inputs and carried cell states; the whole stacked
  weights and biases). So the block is ONE function of the input blocks, entry by entry: `blockOut`.
-/
import proofs.«148567_j76012331204660_2_alg».proof.Proof.Body

noncomputable section

namespace Cert.LstmStack.Block

open Cert.KernelIdeal Cert.KernelIdeal.Gen Idealize.ShloMosaic Idealize.ShloMosaic.ValueIdx Cert.LstmStack Cert.LstmStack.Body

/-! ## Rows of the input blocks -/

/-- Row `p` of the input block; row `p` of each layer of a [2, 1024, 512] block; the upper and lower halves of each
    layer of the stacked weights; each layer's bias. -/
def bX (x0 : S1024x512.Idx → EReal) (p : Fin 1024) : Fin 512 → EReal := fun k => x0 (ix2 p k)
def bL (x : S2x1024x512.Idx → EReal) (p : Fin 1024) : Fin 2 → Fin 512 → EReal := fun l k => x (ix3 l p k)
def bK (x3 : S2x1024x2048.Idx → EReal) : Fin 2 → Fin 512 → Fin 2048 → EReal := fun l k j => x3 (ix3 l (upper k) j)
def bR (x3 : S2x1024x2048.Idx → EReal) : Fin 2 → Fin 512 → Fin 2048 → EReal := fun l k j => x3 (ix3 l (lower k) j)
def bB (x4 : S2x2048.Idx → EReal) : Fin 2 → Fin 2048 → EReal := fun l j => x4 (ix2 l j)

/-- The output block as one function of the input blocks. -/
def blockOut (x0 : S1024x512.Idx → EReal) (x1 x2 : S2x1024x512.Idx → EReal) (x3 : S2x1024x2048.Idx → EReal) (x4 : S2x2048.Idx → EReal) :
    Vec Ideal S2x2x1024x512 .f32 := fun y =>
  rowOut (bX x0 (y 2)) (bL x1 (y 2)) (bL x2 (y 2)) (bK x3) (bR x3) (bB x4) (y 0).val (y 1).val (y 3)

/-! ## A load through a rectangle of consecutive coordinates, read at an index -/

theorem ld_unit_at {S : Shape} {Val : EltTy → Type} {e : EltTy} (X : S.Idx → Val e) (off size : Fin S.rank → Nat)
    (inb : ∀ a, off a + size a ≤ S.size a) (y : (Rect.unit (s := S) off size inb).shape.Idx) (k : S.Idx)
    (hk : ∀ a, (k a).val = off a + (y a).val) : View.ld X (Rect.unit off size inb) y = X k :=
  congrArg X (funext fun a => Fin.ext (by rw [hk a]; show off a + 1 * (y a).val = off a + (y a).val; omega))

section Loads

variable (x0 : Vec Ideal S1024x512 .f32) (x1 x2 : Vec Ideal S2x1024x512 .f32) (x3 : Vec Ideal S2x1024x2048 .bf16) (x4 : Vec Ideal S2x2048 .f32)

theorem hz2 : (![0, 0] : Fin 2 → Nat) = fun _ => 0 := funext fun a => by fin_cases a <;> rfl

theorem row_x0 (p : Fin 1024) : xr (View.ld x0 r0_0) p = bX x0 p := by
  rw [View.ld_unit_zero (S := S1024x512) hz2]; rfl

theorem row_l0 (x : Vec Ideal S2x1024x512 .f32) (p : Fin 1024) : sr (View.ld x r0_1) p = bL x p 0 :=
  funext fun k => ld_unit_at x _ _ _ (ix3 0 p k) (ix3 0 p k) (fun a => match a with
    | ⟨0, _⟩ => rfl
    | ⟨1, _⟩ => by show p.val = 0 + p.val; omega
    | ⟨2, _⟩ => by show k.val = 0 + k.val; omega)

theorem row_l1 (x : Vec Ideal S2x1024x512 .f32) (p : Fin 1024) : sr (View.ld x r0_6) p = bL x p 1 :=
  funext fun k => ld_unit_at x _ _ _ (ix3 0 p k) (ix3 1 p k) (fun a => match a with
    | ⟨0, _⟩ => rfl
    | ⟨1, _⟩ => by show p.val = 0 + p.val; omega
    | ⟨2, _⟩ => by show k.val = 0 + k.val; omega)

theorem wK_l0 : wK (View.ld x3 r0_2) = bK x3 0 :=
  funext fun k => funext fun j => ld_unit_at x3 _ _ _ (ix3 0 (upper k) j) (ix3 0 (upper k) j) (fun a => match a with
    | ⟨0, _⟩ => rfl
    | ⟨1, _⟩ => by show (upper k).val = 0 + (upper k).val; omega
    | ⟨2, _⟩ => by show j.val = 0 + j.val; omega)

theorem wR_l0 : wR (View.ld x3 r0_2) = bR x3 0 :=
  funext fun k => funext fun j => ld_unit_at x3 _ _ _ (ix3 0 (lower k) j) (ix3 0 (lower k) j) (fun a => match a with
    | ⟨0, _⟩ => rfl
    | ⟨1, _⟩ => by show (lower k).val = 0 + (lower k).val; omega
    | ⟨2, _⟩ => by show j.val = 0 + j.val; omega)

theorem wK_l1 : wK (View.ld x3 r0_7) = bK x3 1 :=
  funext fun k => funext fun j => ld_unit_at x3 _ _ _ (ix3 0 (upper k) j) (ix3 1 (upper k) j) (fun a => match a with
    | ⟨0, _⟩ => rfl
    | ⟨1, _⟩ => by show (upper k).val = 0 + (upper k).val; omega
    | ⟨2, _⟩ => by show j.val = 0 + j.val; omega)

theorem wR_l1 : wR (View.ld x3 r0_7) = bR x3 1 :=
  funext fun k => funext fun j => ld_unit_at x3 _ _ _ (ix3 0 (lower k) j) (ix3 1 (lower k) j) (fun a => match a with
    | ⟨0, _⟩ => rfl
    | ⟨1, _⟩ => by show (lower k).val = 0 + (lower k).val; omega
    | ⟨2, _⟩ => by show j.val = 0 + j.val; omega)

theorem b_l0 : br (View.ld x4 r0_3) = bB x4 0 :=
  funext fun j => ld_unit_at x4 _ _ _ (ix2 0 j) (ix2 0 j) (fun a => match a with
    | ⟨0, _⟩ => rfl
    | ⟨1, _⟩ => by show j.val = 0 + j.val; omega)

theorem b_l1 : br (View.ld x4 r0_8) = bB x4 1 :=
  funext fun j => ld_unit_at x4 _ _ _ (ix2 0 j) (ix2 1 j) (fun a => match a with
    | ⟨0, _⟩ => rfl
    | ⟨1, _⟩ => by show j.val = 0 + j.val; omega)

/-! ## The four stored pieces -/

/-- Where a piece's local index lands in the block: layer `l`, state `q`, the piece's own row and column. -/
theorem emb_piece (lo qo : Nat) (hl : lo < 2) (hq : qo < 2)
    (inb : ∀ a, (![lo, qo, 0, 0] : Fin 4 → Nat) a + S1x1x1024x512.size a ≤ S2x2x1024x512.size a)
    (a b : Fin 1) (p : Fin 1024) (s : Fin 512) :
    (Rect.unit (s := S2x2x1024x512) ![lo, qo, 0, 0] S1x1x1024x512.size inb).emb (ix4 a b p s) = ix4 ⟨lo, hl⟩ ⟨qo, hq⟩ p s :=
  funext fun d => Fin.ext (by
    have h0 : a.val < 1 := a.isLt
    have h1 : b.val < 1 := b.isLt
    match d with
    | ⟨0, _⟩ => show lo + 1 * a.val = lo; omega
    | ⟨1, _⟩ => show qo + 1 * b.val = qo; omega
    | ⟨2, _⟩ => show 0 + 1 * p.val = p.val; omega
    | ⟨3, _⟩ => show 0 + 1 * s.val = s.val; omega)

/-- Layer 0's new cell state at block row `p`, in the specification's words. -/
theorem c0_row (p : Fin 1024) :
    cellC (pre (bX x0 p) (bL x1 p 0) (bK x3 0) (bR x3 0) (bB x4 0)) (bL x2 p 0)
      = c0 (bX x0 p) (bL x1 p) (bL x2 p) (bK x3) (bR x3) (bB x4) := rfl

theorem piece_h0 (x : S1x1x1024x512.Idx) :
    k0_pay7 (F := Ideal) (View.ld x0 r0_0) (View.ld x1 r0_1) (View.ld x2 r0_1) (View.ld x3 r0_2) (View.ld x4 r0_3) x
      = blockOut x0 x1 x2 x3 x4 (r0_4.emb x) := by
  obtain ⟨a, b, p, s, rfl⟩ : ∃ (a b : Fin 1) (p : Fin 1024) (s : Fin 512), x = ix4 a b p s := ⟨x 0, x 1, x 2, x 3, eq_ix4 x⟩
  rw [pay7_at, row_x0, row_l0, row_l0, wK_l0, wR_l0, b_l0,
    show r0_4.emb (ix4 a b p s) = ix4 0 0 p s from emb_piece 0 0 (by decide) (by decide) _ a b p s]
  rfl

theorem piece_c0 (x : S1x1x1024x512.Idx) :
    k0_pay8 (F := Ideal) (View.ld x0 r0_0) (View.ld x1 r0_1) (View.ld x2 r0_1) (View.ld x3 r0_2) (View.ld x4 r0_3) x
      = blockOut x0 x1 x2 x3 x4 (r0_5.emb x) := by
  obtain ⟨a, b, p, s, rfl⟩ : ∃ (a b : Fin 1) (p : Fin 1024) (s : Fin 512), x = ix4 a b p s := ⟨x 0, x 1, x 2, x 3, eq_ix4 x⟩
  rw [pay8_at, row_x0, row_l0, row_l0, wK_l0, wR_l0, b_l0,
    show r0_5.emb (ix4 a b p s) = ix4 0 1 p s from emb_piece 0 1 (by decide) (by decide) _ a b p s]
  rfl

/-- Row `p` of the array layer 1 is fed: layer 0's new cell state. -/
theorem fed_row (p : Fin 1024) :
    xr (k0_pay6 (F := Ideal) (View.ld x0 r0_0) (View.ld x1 r0_1) (View.ld x2 r0_1) (View.ld x3 r0_2) (View.ld x4 r0_3)) p
      = c0 (bX x0 p) (bL x1 p) (bL x2 p) (bK x3) (bR x3) (bB x4) := by
  funext k
  show k0_pay6 (F := Ideal) _ _ _ _ _ (ix2 p k) = _
  rw [pay6_at, row_x0, row_l0, row_l0, wK_l0, wR_l0, b_l0]
  rfl

theorem piece_h1 (x : S1x1x1024x512.Idx) :
    k0_pay3 (F := Ideal) (k0_pay6 (View.ld x0 r0_0) (View.ld x1 r0_1) (View.ld x2 r0_1) (View.ld x3 r0_2) (View.ld x4 r0_3))
        (View.ld x1 r0_6) (View.ld x2 r0_6) (View.ld x3 r0_7) (View.ld x4 r0_8) x
      = blockOut x0 x1 x2 x3 x4 (r0_9.emb x) := by
  obtain ⟨a, b, p, s, rfl⟩ : ∃ (a b : Fin 1) (p : Fin 1024) (s : Fin 512), x = ix4 a b p s := ⟨x 0, x 1, x 2, x 3, eq_ix4 x⟩
  rw [pay3_at, fed_row, row_l1, row_l1, wK_l1, wR_l1, b_l1,
    show r0_9.emb (ix4 a b p s) = ix4 1 0 p s from emb_piece 1 0 (by decide) (by decide) _ a b p s]
  rfl

theorem piece_c1 (x : S1x1x1024x512.Idx) :
    k0_pay4 (F := Ideal) (k0_pay6 (View.ld x0 r0_0) (View.ld x1 r0_1) (View.ld x2 r0_1) (View.ld x3 r0_2) (View.ld x4 r0_3))
        (View.ld x1 r0_6) (View.ld x2 r0_6) (View.ld x3 r0_7) (View.ld x4 r0_8) x
      = blockOut x0 x1 x2 x3 x4 (r0_10.emb x) := by
  obtain ⟨a, b, p, s, rfl⟩ : ∃ (a b : Fin 1) (p : Fin 1024) (s : Fin 512), x = ix4 a b p s := ⟨x 0, x 1, x 2, x 3, eq_ix4 x⟩
  rw [pay4_at, fed_row, row_l1, row_l1, wK_l1, wR_l1, b_l1,
    show r0_10.emb (ix4 a b p s) = ix4 1 1 p s from emb_piece 1 1 (by decide) (by decide) _ a b p s]
  rfl

/-- THE BLOCK after the body: the four pieces tile it, and each is `blockOut` on its rectangle. -/
theorem out_eq : out0_5 (F := Ideal) x0 x1 x2 x3 x4 = blockOut x0 x1 x2 x3 x4 := by
  funext y
  unfold out0_5
  refine View.canon_apply_of_pieces (Val := Elt Ideal) (blockOut x0 x1 x2 x3 x4) _ ?_ y (cover0_5 _ _ _ _ y)
  intro pc hpc x
  simp only [List.mem_cons, List.mem_nil_iff, or_false] at hpc
  rcases hpc with rfl | rfl | rfl | rfl
  · exact piece_c1 x0 x1 x2 x3 x4 x
  · exact piece_h1 x0 x1 x2 x3 x4 x
  · exact piece_c0 x0 x1 x2 x3 x4 x
  · exact piece_h0 x0 x1 x2 x3 x4 x

end Loads

end Cert.LstmStack.Block

end
-- ==== Proof.Arr.lean ====
/-
  From blocks to the result array.

  Grid point t stages rows 1024·t … 1024·t + 1023 of the input and of both layers' recurrent inputs and cell states,
  the whole stacked weights and the whole biases, and writes back rows 1024·t … of both layers' hidden and cell
  states. The stacked weights are the two weight arguments joined along their rows (a host operation before the
  launch) and read in bf16, which changes nothing on the extended reals: the upper 512 rows of each layer are the
  forward weights, the lower 512 the recurrent ones. So what point t writes back is block t of ONE whole-array
  function of the six arguments — the specification's `G` — and the sixteen blocks cover the array.
-/
import proofs.«148567_j76012331204660_2_alg».proof.Proof.Gen.KernelIdeal.Value
import proofs.«148567_j76012331204660_2_alg».proof.Proof.Block
import Idealize.ShloMosaic.Lib.StableHlo.Run

noncomputable section

namespace Cert.LstmStack.Arr

open Cert.KernelIdeal Cert.KernelIdeal.Gen Cert.KernelIdeal.Value Idealize.ShloMosaic Idealize.ShloMosaic.TcCoe Idealize.SL.Sem
open Idealize.ShloMosaic.ValueIdx Cert.LstmStack Cert.LstmStack.Block
open Idealize.ShloMosaic.Pipeline (Dat)

variable (m : (ℓ : Loc nD τ sig) → Buf (Elt Ideal) ℓ) (ρ : Dev nD → PrngReg)

/-- The result array as the specification's function of the six arguments as launched. -/
abbrev result (c : Dev nD) : Buf (Elt Ideal) ((c : Thread nD τ).loc main_v2) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the sixteen points: point t's blocks are block t along the batch axis of the
    input, of the recurrent inputs, of the cell states and of the result, and block 0 of the weights and biases. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 4) = 0 ∧ win0_5.index t (1 : Fin 4) = 0 ∧ win0_5.index t (2 : Fin 4) = t.val ∧ win0_5.index t (3 : Fin 4) = 0 :=
  (by decide +kernel : ∀ t : Fin grid0.N, _)

theorem lt16 (t : Fin cfg0.N) : t.val < 16 := by
  have h := t.isLt; have e : cfg0.N = 16 := N_0; omega

/-- Batch row `1024·t + p`: row `p` of point `t`'s blocks. -/
def brow (t : Fin cfg0.N) (p : Fin 1024) : Fin 16384 := ⟨1024 * t.val + p.val, by have := lt16 t; have := p.isLt; omega⟩

/-! ## The input blocks as rows of the arguments -/

theorem iblk0_at (c : Dev nD) (t : Fin cfg0.N) (p : Fin 1024) (k : Fin 512) :
    (iblk m c 0 t : Vec Ideal S1024x512 .f32) (ix2 p k) = (m ((c : Thread nD τ).loc main_arg0) : S16384x512.Idx → EReal) (ix2 (brow t p) k) := by
  obtain ⟨e00, e01, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * p.val = 1024 * t.val + p.val; rw [e00]; omega
  | ⟨1, _⟩ => show win0_0.index t (1 : Fin 2) * 512 + 1 * k.val = k.val; rw [e01]; omega

theorem iblk1_at (c : Dev nD) (t : Fin cfg0.N) (l : Fin 2) (p : Fin 1024) (k : Fin 512) :
    (iblk m c 1 t : Vec Ideal S2x1024x512 .f32) (ix3 l p k) = (m ((c : Thread nD τ).loc main_arg1) : S2x16384x512.Idx → EReal) (ix3 l (brow t p) k) := by
  obtain ⟨-, -, e10, e11, e12, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 2 + 1 * l.val = l.val; rw [e10]; omega
  | ⟨1, _⟩ => show win0_1.index t (1 : Fin 3) * 1024 + 1 * p.val = 1024 * t.val + p.val; rw [e11]; omega
  | ⟨2, _⟩ => show win0_1.index t (2 : Fin 3) * 512 + 1 * k.val = k.val; rw [e12]; omega

theorem iblk2_at (c : Dev nD) (t : Fin cfg0.N) (l : Fin 2) (p : Fin 1024) (k : Fin 512) :
    (iblk m c 2 t : Vec Ideal S2x1024x512 .f32) (ix3 l p k) = (m ((c : Thread nD τ).loc main_arg2) : S2x16384x512.Idx → EReal) (ix3 l (brow t p) k) := by
  obtain ⟨-, -, -, -, -, e20, e21, e22, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 3) * 2 + 1 * l.val = l.val; rw [e20]; omega
  | ⟨1, _⟩ => show win0_2.index t (1 : Fin 3) * 1024 + 1 * p.val = 1024 * t.val + p.val; rw [e21]; omega
  | ⟨2, _⟩ => show win0_2.index t (2 : Fin 3) * 512 + 1 * k.val = k.val; rw [e22]; omega

/-- The stacked weights the launch finds: the two weight arguments joined along their rows, in bf16. -/
theorem stacked (c : Dev nD) : (V m c main_v1 : S2x1024x2048.Idx → EReal)
    = truncf (F := Ideal) .bf16 (concatenate S2x1024x2048 1 [⟨S2x512x2048, (m ((c : Thread nD τ).loc main_arg3) : S2x512x2048.Idx → Ideal .f32)⟩, ⟨S2x512x2048, (m ((c : Thread nD τ).loc main_arg4) : S2x512x2048.Idx → Ideal .f32)⟩]
        concatenates_S2x512x2048_S2x512x2048_S2x1024x2048_d1) bitsLt_bf16_f32 := by
  dsimp only [Gen.V, Gen.hostOps0]
  after_results

theorem iblk3_at (c : Dev nD) (t : Fin cfg0.N) (l : Fin 2) (k : Fin 1024) (j : Fin 2048) :
    (iblk m c 3 t : Vec Ideal S2x1024x2048 .bf16) (ix3 l k j) = (V m c main_v1 : S2x1024x2048.Idx → EReal) (ix3 l k j) := by
  obtain ⟨-, -, -, -, -, -, -, -, e30, e31, e32, -⟩ := idx_facts t
  unfold iblk
  rw [View.read_apply]
  show V m c main_v1 _ = V m c main_v1 _
  congr 1
  funext a
  apply Fin.ext
  match a with
  | ⟨0, _⟩ => show win0_3.index t (0 : Fin 3) * 2 + 1 * l.val = l.val; rw [e30]; omega
  | ⟨1, _⟩ => show win0_3.index t (1 : Fin 3) * 1024 + 1 * k.val = k.val; rw [e31]; omega
  | ⟨2, _⟩ => show win0_3.index t (2 : Fin 3) * 2048 + 1 * j.val = j.val; rw [e32]; omega

theorem iblk4_at (c : Dev nD) (t : Fin cfg0.N) (l : Fin 2) (j : Fin 2048) :
    (iblk m c 4 t : Vec Ideal S2x2048 .f32) (ix2 l j) = (m ((c : Thread nD τ).loc main_arg5) : S2x2048.Idx → EReal) (ix2 l j) := by
  obtain ⟨-, -, -, -, -, -, -, -, -, -, -, e40, e41, -⟩ := idx_facts t
  unfold iblk
  rw [View.read_apply]
  show V m c main_arg5 _ = m (c.tc.loc main_arg5) _
  rw [V_main_arg5]
  congr 1
  funext a
  apply Fin.ext
  match a with
  | ⟨0, _⟩ => show win0_4.index t (0 : Fin 2) * 2 + 1 * l.val = l.val; rw [e40]; omega
  | ⟨1, _⟩ => show win0_4.index t (1 : Fin 2) * 2048 + 1 * j.val = j.val; rw [e41]; omega

/-- The upper 512 rows of a layer of the stacked weights are the forward weights … -/
theorem stacked_upper (c : Dev nD) (l : Fin 2) (k : Fin 512) (j : Fin 2048) :
    (V m c main_v1 : S2x1024x2048.Idx → EReal) (ix3 l (upper k) j) = (m ((c : Thread nD τ).loc main_arg3) : S2x512x2048.Idx → EReal) (ix3 l k j) := by
  rw [stacked]
  show (concatenate S2x1024x2048 1 [⟨S2x512x2048, (m ((c : Thread nD τ).loc main_arg3) : S2x512x2048.Idx → Ideal .f32)⟩, ⟨S2x512x2048, (m ((c : Thread nD τ).loc main_arg4) : S2x512x2048.Idx → Ideal .f32)⟩]
      concatenates_S2x512x2048_S2x512x2048_S2x1024x2048_d1 : S2x1024x2048.Idx → Ideal .f32) (ix3 l (upper k) j) = _
  exact concatenate_pair_apply_left (s₁ := S2x512x2048) (s₂ := S2x512x2048) 1 _ _ _ (ix3 l (upper k) j) rfl (ix3 l k j) (fun b => match b with
    | ⟨0, _⟩ => rfl | ⟨1, _⟩ => rfl | ⟨2, _⟩ => rfl)

/-- … and the lower 512 the recurrent weights. -/
theorem stacked_lower (c : Dev nD) (l : Fin 2) (k : Fin 512) (j : Fin 2048) :
    (V m c main_v1 : S2x1024x2048.Idx → EReal) (ix3 l (lower k) j) = (m ((c : Thread nD τ).loc main_arg4) : S2x512x2048.Idx → EReal) (ix3 l k j) := by
  rw [stacked]
  show (concatenate S2x1024x2048 1 [⟨S2x512x2048, (m ((c : Thread nD τ).loc main_arg3) : S2x512x2048.Idx → Ideal .f32)⟩, ⟨S2x512x2048, (m ((c : Thread nD τ).loc main_arg4) : S2x512x2048.Idx → Ideal .f32)⟩]
      concatenates_S2x512x2048_S2x512x2048_S2x1024x2048_d1 : S2x1024x2048.Idx → Ideal .f32) (ix3 l (lower k) j) = _
  exact concatenate_pair_apply_right (s₁ := S2x512x2048) (s₂ := S2x512x2048) 1 _ _ _ (ix3 l (lower k) j) rfl rfl (ix3 l k j)
    (fun b hb => match b, hb with | ⟨0, _⟩, _ => rfl | ⟨1, _⟩, hb => absurd rfl hb | ⟨2, _⟩, _ => rfl)
    (by show k.val + 512 = 512 + k.val; omega)

/-! ## What point t writes back -/

theorem flushed_eq (c : Dev nD) (t : Fin cfg0.N) :
    (dats m 0 c).flushed 5 t = ((cfg0.win 5).blk t).view.read (Elt Ideal) (result m c) := by
  rw [flushed5, out_eq]
  funext y
  obtain ⟨-, -, -, -, -, -, -, -, -, -, -, -, -, e50, e51, e52, e53⟩ := idx_facts t
  have hy0 : (y 0).val < 2 := (y 0).isLt
  have hy1 : (y 1).val < 2 := (y 1).isLt
  have e : ((cfg0.win 5).blk t).view.emb y = ix4 (y 0) (y 1) (brow t (y 2)) (y 3) := funext fun a => Fin.ext (by
    match a with
    | ⟨0, _⟩ => show win0_5.index t (0 : Fin 4) * 2 + 1 * (y 0).val = (y 0).val; rw [e50]; omega
    | ⟨1, _⟩ => show win0_5.index t (1 : Fin 4) * 2 + 1 * (y 1).val = (y 1).val; rw [e51]; omega
    | ⟨2, _⟩ => show win0_5.index t (2 : Fin 4) * 1024 + 1 * (y 2).val = 1024 * t.val + (y 2).val; rw [e52]; omega
    | ⟨3, _⟩ => show win0_5.index t (3 : Fin 4) * 512 + 1 * (y 3).val = (y 3).val; rw [e53]; omega)
  show blockOut (iblk m c 0 t) (iblk m c 1 t) (iblk m c 2 t) (iblk m c 3 t) (iblk m c 4 t) y = result m c (((cfg0.win 5).blk t).view.emb y)
  rw [e]
  have r0 : bX (iblk m c 0 t) (y 2) = xrow (m ((c : Thread nD τ).loc main_arg0)) (brow t (y 2)) := funext fun k => iblk0_at m c t (y 2) k
  have r1 : bL (iblk m c 1 t) (y 2) = lrow (m ((c : Thread nD τ).loc main_arg1)) (brow t (y 2)) := funext fun l => funext fun k => iblk1_at m c t l (y 2) k
  have r2 : bL (iblk m c 2 t) (y 2) = lrow (m ((c : Thread nD τ).loc main_arg2)) (brow t (y 2)) := funext fun l => funext fun k => iblk2_at m c t l (y 2) k
  have r3 : bK (iblk m c 3 t) = wmat (m ((c : Thread nD τ).loc main_arg3)) := funext fun l => funext fun k => funext fun j => (iblk3_at m c t l (upper k) j).trans (stacked_upper m c l k j)
  have r4 : bR (iblk m c 3 t) = wmat (m ((c : Thread nD τ).loc main_arg4)) := funext fun l => funext fun k => funext fun j => (iblk3_at m c t l (lower k) j).trans (stacked_lower m c l k j)
  have r5 : bB (iblk m c 4 t) = bvec (m ((c : Thread nD τ).loc main_arg5)) := funext fun l => funext fun j => iblk4_at m c t l j
  show rowOut (bX (iblk m c 0 t) (y 2)) (bL (iblk m c 1 t) (y 2)) (bL (iblk m c 2 t) (y 2)) (bK (iblk m c 3 t)) (bR (iblk m c 3 t)) (bB (iblk m c 4 t)) (y 0).val (y 1).val (y 3) = _
  rw [r0, r1, r2, r3, r4, r5]
  rfl

/-! ## The sixteen blocks cover the array -/

theorem mem_blk (t : Fin cfg0.N) (i : S2x2x16384x512.Idx) :
    i ∈ ((cfg0.win 5).blk t).view.set ↔ ∀ a : Fin 4, win0_5.index t a * S2x2x1024x512.size a ≤ (i a).val ∧ (i a).val < win0_5.index t a * S2x2x1024x512.size a + S2x2x1024x512.size a := by
  show i ∈ ((View.whole main_v2).slice (win0_5.rect t)).set ↔ _
  rw [View.set_slice_whole, Rect.mem_set_unit]
  exact Iff.rfl

theorem cover (i : S2x2x16384x512.Idx) : ∃ t : Fin cfg0.N, (cfg0.win 5).flush t = true ∧ i ∈ ((cfg0.win 5).blk t).view.set := by
  have h0 : (i 0).val < 2 := (i 0).isLt
  have h1 : (i 1).val < 2 := (i 1).isLt
  have h2 : (i 2).val < 16384 := (i 2).isLt
  have h3 : (i 3).val < 512 := (i 3).isLt
  let t : Fin cfg0.N := ⟨(i 2).val / 1024, by have e : cfg0.N = 16 := N_0; omega⟩
  have ht : t.val = (i 2).val / 1024 := rfl
  obtain ⟨-, -, -, -, -, -, -, -, -, -, -, -, -, e50, e51, e52, e53⟩ := idx_facts t
  refine ⟨t, flush0_5 t, ?_⟩
  rw [mem_blk]
  intro a
  match a with
  | ⟨0, _⟩ => show win0_5.index t (0 : Fin 4) * 2 ≤ (i 0).val ∧ (i 0).val < win0_5.index t (0 : Fin 4) * 2 + 2; rw [e50]; omega
  | ⟨1, _⟩ => show win0_5.index t (1 : Fin 4) * 2 ≤ (i 1).val ∧ (i 1).val < win0_5.index t (1 : Fin 4) * 2 + 2; rw [e51]; omega
  | ⟨2, _⟩ => show win0_5.index t (2 : Fin 4) * 1024 ≤ (i 2).val ∧ (i 2).val < win0_5.index t (2 : Fin 4) * 1024 + 1024; rw [e52, ht]; omega
  | ⟨3, _⟩ => show win0_5.index t (3 : Fin 4) * 512 ≤ (i 3).val ∧ (i 3).val < win0_5.index t (3 : Fin 4) * 512 + 512; rw [e53]; omega

/-- THE ARRAY after the run is the specification's function of the arguments. -/
theorem final (c : Dev nD) : (dats m 0 c).arrAt 5 cfg0.N = result m c :=
  (dats m 0 c).arrAt_eq_of_cover 5 (result m c) (fun t _ => flushed_eq m c t) (cover)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.LstmStack.Arr

end
-- ==== Proof.RefRows.lean ====
/-
  The reference program's stages, read one batch row at a time.

  Each stage of the reference is a whole [16384, ·] array whose entry (r, ·) depends on batch row r of the inputs
  only. Each stage the result is built from is identified here, at row r, with the row function of the
  specification: the gate pre-activations (two products of length 512, added, plus the bias), the new cell state
  and the new hidden state, for both layers; then the result array, which stacks the four [16384, 512] stages on two
  leading axes. The reference spells the logistic function as 1 / (1 + exp(-z)), which on the extended reals IS
  the logistic function, at the infinities too.
-/
import proofs.«148567_j76012331204660_2_alg».proof.Proof.Gen.ReferenceIdeal.Read
import proofs.«148567_j76012331204660_2_alg».proof.Proof.Spec

noncomputable section

namespace Cert.LstmStack.Ref

open Cert.ReferenceIdeal Cert.ReferenceIdeal.Gen Cert.ReferenceIdeal.Read Idealize.ShloMosaic Idealize.ShloMosaic.ValueIdx Cert.LstmStack

variable (a0 : (⟨S16384x512, .f32⟩ : BufTy).Contents (Elt Ideal)) (a1 a2 : (⟨S2x16384x512, .f32⟩ : BufTy).Contents (Elt Ideal))
  (a3 a4 : (⟨S2x512x2048, .f32⟩ : BufTy).Contents (Elt Ideal)) (a5 : (⟨S2x2048, .f32⟩ : BufTy).Contents (Elt Ideal))

/-- The literal 1.0 is the real number one. -/
theorem one_f32 : FloatOps.ofBits (F := Ideal) .f32 0x3F800000#32 = (1 : EReal) := by
  show Ideal.ofBits .f32 0x3F800000#32 = 1
  simp [Ideal.ofBits, Ideal.ieee, -EReal.coe_mul]; norm_num

/-! ## The layers' slices of the arguments -/

/-- Layer 0's forward weights, recurrent weights; layer 1's. -/
theorem w3_l0 (k : Fin 512) (j : Fin 2048) : val_main_v5 (F := Ideal) a3 (ix2 k j) = a3 (ix3 0 k j) := by
  rw [val_main_v5_apply, val_main_v4_apply]
  refine congrArg a3 (funext fun d => Fin.ext ?_)
  have hk := k.isLt; have hj := j.isLt
  match d with
  | ⟨0, _⟩ => rfl
  | ⟨1, _⟩ => show (k.val * 2048 + j.val) / 2048 % 512 = k.val; omega
  | ⟨2, _⟩ => show (k.val * 2048 + j.val) % 2048 = j.val; omega

theorem w4_l0 (k : Fin 512) (j : Fin 2048) : val_main_v8 (F := Ideal) a4 (ix2 k j) = a4 (ix3 0 k j) := by
  rw [val_main_v8_apply, val_main_v7_apply]
  refine congrArg a4 (funext fun d => Fin.ext ?_)
  have hk := k.isLt; have hj := j.isLt
  match d with
  | ⟨0, _⟩ => rfl
  | ⟨1, _⟩ => show (k.val * 2048 + j.val) / 2048 % 512 = k.val; omega
  | ⟨2, _⟩ => show (k.val * 2048 + j.val) % 2048 = j.val; omega

theorem w3_l1 (k : Fin 512) (j : Fin 2048) : val_main_v49 (F := Ideal) a3 (ix2 k j) = a3 (ix3 1 k j) := by
  rw [val_main_v49_apply, val_main_v48_apply]
  refine congrArg a3 (funext fun d => Fin.ext ?_)
  have hk := k.isLt; have hj := j.isLt
  match d with
  | ⟨0, _⟩ => rfl
  | ⟨1, _⟩ => show (k.val * 2048 + j.val) / 2048 % 512 = k.val; omega
  | ⟨2, _⟩ => show (k.val * 2048 + j.val) % 2048 = j.val; omega

theorem w4_l1 (k : Fin 512) (j : Fin 2048) : val_main_v52 (F := Ideal) a4 (ix2 k j) = a4 (ix3 1 k j) := by
  rw [val_main_v52_apply, val_main_v51_apply]
  refine congrArg a4 (funext fun d => Fin.ext ?_)
  have hk := k.isLt; have hj := j.isLt
  match d with
  | ⟨0, _⟩ => rfl
  | ⟨1, _⟩ => show (k.val * 2048 + j.val) / 2048 % 512 = k.val; omega
  | ⟨2, _⟩ => show (k.val * 2048 + j.val) % 2048 = j.val; omega

/-- Layer 0's recurrent input and carried cell state; layer 1's. -/
theorem row1_l0 (r : Fin 16384) (s : Fin 512) : val_main_v1 (F := Ideal) a1 (ix2 r s) = a1 (ix3 0 r s) := by
  rw [val_main_v1_apply, val_main_v0_apply]
  refine congrArg a1 (funext fun d => Fin.ext ?_)
  have hr := r.isLt; have hs := s.isLt
  match d with
  | ⟨0, _⟩ => rfl
  | ⟨1, _⟩ => show (r.val * 512 + s.val) / 512 % 16384 = r.val; omega
  | ⟨2, _⟩ => show (r.val * 512 + s.val) % 512 = s.val; omega

theorem row2_l0 (r : Fin 16384) (s : Fin 512) : val_main_v3 (F := Ideal) a2 (ix2 r s) = a2 (ix3 0 r s) := by
  rw [val_main_v3_apply, val_main_v2_apply]
  refine congrArg a2 (funext fun d => Fin.ext ?_)
  have hr := r.isLt; have hs := s.isLt
  match d with
  | ⟨0, _⟩ => rfl
  | ⟨1, _⟩ => show (r.val * 512 + s.val) / 512 % 16384 = r.val; omega
  | ⟨2, _⟩ => show (r.val * 512 + s.val) % 512 = s.val; omega

theorem row1_l1 (r : Fin 16384) (s : Fin 512) : val_main_v45 (F := Ideal) a1 (ix2 r s) = a1 (ix3 1 r s) := by
  rw [val_main_v45_apply, val_main_v44_apply]
  refine congrArg a1 (funext fun d => Fin.ext ?_)
  have hr := r.isLt; have hs := s.isLt
  match d with
  | ⟨0, _⟩ => rfl
  | ⟨1, _⟩ => show (r.val * 512 + s.val) / 512 % 16384 = r.val; omega
  | ⟨2, _⟩ => show (r.val * 512 + s.val) % 512 = s.val; omega

theorem row2_l1 (r : Fin 16384) (s : Fin 512) : val_main_v47 (F := Ideal) a2 (ix2 r s) = a2 (ix3 1 r s) := by
  rw [val_main_v47_apply, val_main_v46_apply]
  refine congrArg a2 (funext fun d => Fin.ext ?_)
  have hr := r.isLt; have hs := s.isLt
  match d with
  | ⟨0, _⟩ => rfl
  | ⟨1, _⟩ => show (r.val * 512 + s.val) / 512 % 16384 = r.val; omega
  | ⟨2, _⟩ => show (r.val * 512 + s.val) % 512 = s.val; omega

/-- The layers' biases, broadcast along the batch. -/
theorem bias_l0 (r : Fin 16384) (j : Fin 2048) : val_main_v14 (F := Ideal) a5 (ix2 r j) = a5 (ix2 0 j) := by
  rw [val_main_v14_apply, val_main_v13_apply, val_main_v12_apply, val_main_v11_apply]
  refine congrArg a5 (funext fun d => Fin.ext ?_)
  have hj := j.isLt
  match d with
  | ⟨0, _⟩ => rfl
  | ⟨1, _⟩ => show j.val % 2048 = j.val; omega

theorem bias_l1 (r : Fin 16384) (j : Fin 2048) : val_main_v58 (F := Ideal) a5 (ix2 r j) = a5 (ix2 1 j) := by
  rw [val_main_v58_apply, val_main_v57_apply, val_main_v56_apply, val_main_v55_apply]
  refine congrArg a5 (funext fun d => Fin.ext ?_)
  have hj := j.isLt
  match d with
  | ⟨0, _⟩ => rfl
  | ⟨1, _⟩ => show j.val % 2048 = j.val; omega

/-! ## Layer 0 -/

/-- The gate pre-activations of batch row `r`. -/
theorem z0_at (r : Fin 16384) (j : Fin 2048) :
    val_main_v15 (F := Ideal) a0 a1 a3 a4 a5 (ix2 r j) = z0 (xrow a0 r) (lrow a1 r) (wmat a3) (wmat a4) (bvec a5) j := by
  rw [val_main_v15_apply, val_main_v10_apply, val_main_v6_apply, val_main_v9_apply, bias_l0]
  unfold z0 pre
  refine congrArg₂ (· + ·) (congrArg₂ (· + ·) (Finset.sum_congr rfl fun k _ => ?_) (Finset.sum_congr rfl fun k _ => ?_)) rfl
  · have el : lidx_main_v6 (ix2 r j) k = ix2 r k := funext fun d => Fin.ext (by match d with | ⟨0, _⟩ => rfl | ⟨1, _⟩ => rfl)
    have er : ridx_main_v6 (ix2 r j) k = ix2 k j := funext fun d => Fin.ext (by match d with | ⟨0, _⟩ => rfl | ⟨1, _⟩ => rfl)
    rw [el, er, w3_l0]; rfl
  · have el : lidx_main_v9 (ix2 r j) k = ix2 r k := funext fun d => Fin.ext (by match d with | ⟨0, _⟩ => rfl | ⟨1, _⟩ => rfl)
    have er : ridx_main_v9 (ix2 r j) k = ix2 k j := funext fun d => Fin.ext (by match d with | ⟨0, _⟩ => rfl | ⟨1, _⟩ => rfl)
    rw [el, er, w4_l0, row1_l0]; rfl

/-- The new cell state of batch row `r`. -/
theorem c0_at (r : Fin 16384) (s : Fin 512) :
    val_main_v35 (F := Ideal) a0 a1 a2 a3 a4 a5 (ix2 r s) = c0 (xrow a0 r) (lrow a1 r) (lrow a2 r) (wmat a3) (wmat a4) (bvec a5) s := by
  have e16 : idx_main_v16 (ix2 r s) = ix2 r (lane 0 (by decide) s) := funext fun d => Fin.ext (by
    match d with
    | ⟨0, _⟩ => rfl
    | ⟨1, _⟩ => show s.val = 0 + s.val; omega)
  have e17 : idx_main_v17 (ix2 r s) = ix2 r (lane 512 (by decide) s) := funext fun d => Fin.ext (by
    match d with
    | ⟨0, _⟩ => rfl
    | ⟨1, _⟩ => rfl)
  have e18 : idx_main_v18 (ix2 r s) = ix2 r (lane 1024 (by decide) s) := funext fun d => Fin.ext (by
    match d with
    | ⟨0, _⟩ => rfl
    | ⟨1, _⟩ => rfl)
  simp only [val_main_v35_apply, val_main_v26_apply, val_main_v25_apply, val_main_v24_apply, val_main_cst_0_apply, val_main_v23_apply, val_main_v22_apply, val_main_cst_apply, val_main_v21_apply, val_main_v20_apply, val_main_v17_apply, val_main_v34_apply, val_main_v32_apply, val_main_v31_apply, val_main_cst_2_apply, val_main_v30_apply, val_main_v29_apply, val_main_cst_1_apply, val_main_v28_apply, val_main_v27_apply, val_main_v16_apply, val_main_v33_apply, val_main_v18_apply, e16, e17, e18, z0_at, row2_l0, one_f32]
  rfl

/-- The new hidden state of batch row `r`. -/
theorem h0_at (r : Fin 16384) (s : Fin 512) :
    val_main_v43 (F := Ideal) a0 a1 a2 a3 a4 a5 (ix2 r s) = h0 (xrow a0 r) (lrow a1 r) (lrow a2 r) (wmat a3) (wmat a4) (bvec a5) s := by
  have e19 : idx_main_v19 (ix2 r s) = ix2 r (lane 1536 (by decide) s) := funext fun d => Fin.ext (by
    match d with
    | ⟨0, _⟩ => rfl
    | ⟨1, _⟩ => rfl)
  simp only [val_main_v43_apply, val_main_v41_apply, val_main_v40_apply, val_main_cst_4_apply, val_main_v39_apply, val_main_v38_apply, val_main_cst_3_apply, val_main_v37_apply, val_main_v36_apply, val_main_v19_apply, val_main_v42_apply, e19, z0_at, c0_at, one_f32]
  rfl

/-! ## Layer 1, fed layer 0's new cell state -/

theorem z1_at (r : Fin 16384) (j : Fin 2048) :
    val_main_v59 (F := Ideal) a0 a1 a2 a3 a4 a5 (ix2 r j) = z1 (xrow a0 r) (lrow a1 r) (lrow a2 r) (wmat a3) (wmat a4) (bvec a5) j := by
  rw [val_main_v59_apply, val_main_v54_apply, val_main_v50_apply, val_main_v53_apply, bias_l1]
  unfold z1 pre
  refine congrArg₂ (· + ·) (congrArg₂ (· + ·) (Finset.sum_congr rfl fun k _ => ?_) (Finset.sum_congr rfl fun k _ => ?_)) rfl
  · have el : lidx_main_v50 (ix2 r j) k = ix2 r k := funext fun d => Fin.ext (by match d with | ⟨0, _⟩ => rfl | ⟨1, _⟩ => rfl)
    have er : ridx_main_v50 (ix2 r j) k = ix2 k j := funext fun d => Fin.ext (by match d with | ⟨0, _⟩ => rfl | ⟨1, _⟩ => rfl)
    rw [el, er, w3_l1, c0_at]; rfl
  · have el : lidx_main_v53 (ix2 r j) k = ix2 r k := funext fun d => Fin.ext (by match d with | ⟨0, _⟩ => rfl | ⟨1, _⟩ => rfl)
    have er : ridx_main_v53 (ix2 r j) k = ix2 k j := funext fun d => Fin.ext (by match d with | ⟨0, _⟩ => rfl | ⟨1, _⟩ => rfl)
    rw [el, er, w4_l1, row1_l1]; rfl

theorem c1_at (r : Fin 16384) (s : Fin 512) :
    val_main_v79 (F := Ideal) a0 a1 a2 a3 a4 a5 (ix2 r s) = c1 (xrow a0 r) (lrow a1 r) (lrow a2 r) (wmat a3) (wmat a4) (bvec a5) s := by
  have e60 : idx_main_v60 (ix2 r s) = ix2 r (lane 0 (by decide) s) := funext fun d => Fin.ext (by
    match d with
    | ⟨0, _⟩ => rfl
    | ⟨1, _⟩ => show s.val = 0 + s.val; omega)
  have e61 : idx_main_v61 (ix2 r s) = ix2 r (lane 512 (by decide) s) := funext fun d => Fin.ext (by
    match d with
    | ⟨0, _⟩ => rfl
    | ⟨1, _⟩ => rfl)
  have e62 : idx_main_v62 (ix2 r s) = ix2 r (lane 1024 (by decide) s) := funext fun d => Fin.ext (by
    match d with
    | ⟨0, _⟩ => rfl
    | ⟨1, _⟩ => rfl)
  simp only [val_main_v79_apply, val_main_v70_apply, val_main_v69_apply, val_main_v68_apply, val_main_cst_6_apply, val_main_v67_apply, val_main_v66_apply, val_main_cst_5_apply, val_main_v65_apply, val_main_v64_apply, val_main_v61_apply, val_main_v78_apply, val_main_v76_apply, val_main_v75_apply, val_main_cst_8_apply, val_main_v74_apply, val_main_v73_apply, val_main_cst_7_apply, val_main_v72_apply, val_main_v71_apply, val_main_v60_apply, val_main_v77_apply, val_main_v62_apply, e60, e61, e62, z1_at, row2_l1, one_f32]
  rfl

theorem h1_at (r : Fin 16384) (s : Fin 512) :
    val_main_v87 (F := Ideal) a0 a1 a2 a3 a4 a5 (ix2 r s) = h1 (xrow a0 r) (lrow a1 r) (lrow a2 r) (wmat a3) (wmat a4) (bvec a5) s := by
  have e63 : idx_main_v63 (ix2 r s) = ix2 r (lane 1536 (by decide) s) := funext fun d => Fin.ext (by
    match d with
    | ⟨0, _⟩ => rfl
    | ⟨1, _⟩ => rfl)
  simp only [val_main_v87_apply, val_main_v85_apply, val_main_v84_apply, val_main_cst_10_apply, val_main_v83_apply, val_main_v82_apply, val_main_cst_9_apply, val_main_v81_apply, val_main_v80_apply, val_main_v63_apply, val_main_v86_apply, e63, z1_at, c1_at, one_f32]
  rfl

/-! ## The result array -/

/-- Two [1, 16384, 512] slabs joined on the leading axis, read at layer `l`. -/
theorem stack_layers (X Y : S1x16384x512.Idx → EReal) (l : Fin 2) (r : Fin 16384) (s : Fin 512) :
    concatenate S2x16384x512 0 [⟨S1x16384x512, X⟩, ⟨S1x16384x512, Y⟩] concatenates_S1x16384x512_S1x16384x512_S2x16384x512_d0 (ix3 l r s)
      = if l.val = 0 then X (ix3 0 r s) else Y (ix3 0 r s) := by
  by_cases hl : l.val = 0
  · rw [if_pos hl]
    exact concatenate_pair_apply_left 0 X Y _ (ix3 l r s) rfl (ix3 0 r s) (fun b => match b with
      | ⟨0, _⟩ => hl.symm | ⟨1, _⟩ => rfl | ⟨2, _⟩ => rfl)
  · rw [if_neg hl]
    have hl1 : l.val = 1 := by have := l.isLt; omega
    exact concatenate_pair_apply_right 0 X Y _ (ix3 l r s) rfl rfl (ix3 0 r s)
      (fun b hb => match b, hb with | ⟨0, _⟩, hb => absurd rfl hb | ⟨1, _⟩, _ => rfl | ⟨2, _⟩, _ => rfl)
      (by show 0 + 1 = l.val; omega)

/-- Two [2, 1, 16384, 512] arrays joined on axis 1, read at state `q`. -/
theorem stack_states (X Y : S2x1x16384x512.Idx → EReal) (l q : Fin 2) (r : Fin 16384) (s : Fin 512) :
    concatenate S2x2x16384x512 1 [⟨S2x1x16384x512, X⟩, ⟨S2x1x16384x512, Y⟩] concatenates_S2x1x16384x512_S2x1x16384x512_S2x2x16384x512_d1 (ix4 l q r s)
      = if q.val = 0 then X (ix4 l 0 r s) else Y (ix4 l 0 r s) := by
  by_cases hq : q.val = 0
  · rw [if_pos hq]
    exact concatenate_pair_apply_left 1 X Y _ (ix4 l q r s) rfl (ix4 l 0 r s) (fun b => match b with
      | ⟨0, _⟩ => rfl | ⟨1, _⟩ => hq.symm | ⟨2, _⟩ => rfl | ⟨3, _⟩ => rfl)
  · rw [if_neg hq]
    have hq1 : q.val = 1 := by have := q.isLt; omega
    exact concatenate_pair_apply_right 1 X Y _ (ix4 l q r s) rfl rfl (ix4 l 0 r s)
      (fun b hb => match b, hb with | ⟨0, _⟩, _ => rfl | ⟨1, _⟩, hb => absurd rfl hb | ⟨2, _⟩, _ => rfl | ⟨3, _⟩, _ => rfl)
      (by show 0 + 1 = q.val; omega)

/-- THE RESULT at (l, q, r, s): layer `l`'s hidden (q = 0) or cell (q = 1) state of batch row `r`. -/
theorem result_at (l q : Fin 2) (r : Fin 16384) (s : Fin 512) :
    val_main_v96 (F := Ideal) a0 a1 a2 a3 a4 a5 (ix4 l q r s) = rowOut (xrow a0 r) (lrow a1 r) (lrow a2 r) (wmat a3) (wmat a4) (bvec a5) l.val q.val s := by
  have e94 : idx_main_v94 (ix4 l (0 : Fin 1) r s) = ix3 l r s := funext fun d => Fin.ext (by
    match d with | ⟨0, _⟩ => rfl | ⟨1, _⟩ => rfl | ⟨2, _⟩ => rfl)
  have e95 : idx_main_v95 (ix4 l (0 : Fin 1) r s) = ix3 l r s := funext fun d => Fin.ext (by
    match d with | ⟨0, _⟩ => rfl | ⟨1, _⟩ => rfl | ⟨2, _⟩ => rfl)
  have e88 : idx_main_v88 (ix3 (0 : Fin 1) r s) = ix2 r s := funext fun d => Fin.ext (by
    match d with | ⟨0, _⟩ => rfl | ⟨1, _⟩ => rfl)
  have e89 : idx_main_v89 (ix3 (0 : Fin 1) r s) = ix2 r s := funext fun d => Fin.ext (by
    match d with | ⟨0, _⟩ => rfl | ⟨1, _⟩ => rfl)
  have e91 : idx_main_v91 (ix3 (0 : Fin 1) r s) = ix2 r s := funext fun d => Fin.ext (by
    match d with | ⟨0, _⟩ => rfl | ⟨1, _⟩ => rfl)
  have e92 : idx_main_v92 (ix3 (0 : Fin 1) r s) = ix2 r s := funext fun d => Fin.ext (by
    match d with | ⟨0, _⟩ => rfl | ⟨1, _⟩ => rfl)
  unfold val_main_v96 rowOut
  rw [stack_states]
  by_cases hq : q.val = 0 <;> by_cases hl : l.val = 0
  · rw [if_pos hq, if_pos hl, if_pos hq, val_main_v94_apply, e94]
    unfold val_main_v90
    rw [stack_layers, if_pos hl, val_main_v88_apply, e88, h0_at]
  · rw [if_pos hq, if_neg hl, if_pos hq, val_main_v94_apply, e94]
    unfold val_main_v90
    rw [stack_layers, if_neg hl, val_main_v89_apply, e89, h1_at]
  · rw [if_neg hq, if_pos hl, if_neg hq, val_main_v95_apply, e95]
    unfold val_main_v93
    rw [stack_layers, if_pos hl, val_main_v91_apply, e91, c0_at]
  · rw [if_neg hq, if_neg hl, if_neg hq, val_main_v95_apply, e95]
    unfold val_main_v93
    rw [stack_layers, if_neg hl, val_main_v92_apply, e92, c1_at]

/-- The reference's result array is the specification's `G` of its arguments. -/
theorem result_eq : val_main_v96 (F := Ideal) a0 a1 a2 a3 a4 a5 = G a0 a1 a2 a3 a4 a5 := by
  funext i
  rw [eq_ix4 i]
  exact result_at a0 a1 a2 a3 a4 a5 (i 0) (i 1) (i 2) (i 3)

end Cert.LstmStack.Ref

end
-- ==== Proof.lean ====
/-
  The proof of `Cert.Claim` for a stack of two LSTM cells over 16384 batch rows.

  The kernel, at each of sixteen grid points, takes 1024 batch rows and computes both cells for them: per layer ONE
  matrix product of the joined rows [x ; h] (length 1024) with the stacked bf16 weights [K ; R], plus the bias, then the
  gates; the second cell is fed the first cell's new cell state. The reference computes, over all rows at once, the
  two products x·K and h·R of length 512, adds them and the bias, and spells the logistic function out as
  1 / (1 + exp(-z)). On the extended reals with exact operations the two agree entry by entry:
    * a change of float format is the identity;
    * a sum of 1024 products is the sum of its first 512 and its last 512 (associativity of + only, so nothing has to
      be finite and the precondition is never opened);
    * 1 / (1 + exp(-z)) is the logistic function at every extended real.
  Both programs' result arrays are therefore the one function `Cert.LstmStack.G` of the six argument arrays
  (Proof/Spec.lean): the kernel's by Proof/Body.lean (the body's arithmetic at an index), Proof/Block.lean (the four
  stored pieces of a block) and Proof/Arr.lean (blocks to the array); the reference's by Proof/RefRows.lean.
  The frames of the two printed kernels are the generated ones; the reference's frame is its run with the result
  dropped; the idealization rewrote nothing, so `preserves` is trivial.
-/
import proofs.«148567_j76012331204660_2_alg».proof.Defs
import proofs.«148567_j76012331204660_2_alg».proof.Proof.Gen.Kernel
import proofs.«148567_j76012331204660_2_alg».proof.Proof.Gen.Kernel.Skeleton
import proofs.«148567_j76012331204660_2_alg».proof.Proof.Gen.Kernel.Launch
import proofs.«148567_j76012331204660_2_alg».proof.Proof.Gen.Kernel.Points
import proofs.«148567_j76012331204660_2_alg».proof.Proof.Gen.Kernel.Frame
import proofs.«148567_j76012331204660_2_alg».proof.Proof.Gen.KernelIdeal
import proofs.«148567_j76012331204660_2_alg».proof.Proof.Gen.KernelIdeal.Skeleton
import proofs.«148567_j76012331204660_2_alg».proof.Proof.Gen.KernelIdeal.Launch
import proofs.«148567_j76012331204660_2_alg».proof.Proof.Gen.KernelIdeal.Points
import proofs.«148567_j76012331204660_2_alg».proof.Proof.Gen.KernelIdeal.Frame
import proofs.«148567_j76012331204660_2_alg».proof.Proof.Gen.ReferenceIdeal
import proofs.«148567_j76012331204660_2_alg».proof.Proof.Gen.Pre_finite_inputs
import proofs.«148567_j76012331204660_2_alg».proof.Proof.Gen.KernelIdeal.Value
import proofs.«148567_j76012331204660_2_alg».proof.Proof.Gen.ReferenceIdeal.Run
import proofs.«148567_j76012331204660_2_alg».proof.Proof.Gen.ReferenceIdeal.Read
import proofs.«148567_j76012331204660_2_alg».proof.Proof.Arr
import proofs.«148567_j76012331204660_2_alg».proof.Proof.RefRows
import Idealize.ShloMosaic.Adequacy
import Idealize.ShloMosaic.Init

noncomputable section

namespace Cert.Proof

open Idealize.ShloMosaic Idealize.SL.Sem

/-- The printed kernel and its idealization run, terminate and leave their arguments as they were. -/
theorem frame_k : Cert.frame_Kernel := fun m ρ _ => Cert.Kernel.Gen.frame m ρ
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are the same function `G` of arguments that agree. -/
theorem algebraic : Cert.algebraic_KernelIdeal_ReferenceIdeal := by
  intro m ρ m' ρ' _ hagree
  refine ⟨fun c => Cert.LstmStack.Arr.result m c, Cert.LstmStack.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v96_eq, Cert.LstmStack.Ref.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
